-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64x128 .f32) (main_arg5 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : FVec F S128x64 .f32) (main_arg3 : FVec F S64 .f32) (main_arg4 : FVec F S64x128 .f32) (main_arg5 : FVec F S128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1x128 : Shape := ⟨2, ![1, 128]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩

abbrev nBuf : Space → Nat
  | .hbm => 59
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S1x128, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x128, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x128, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The kernel program's run, with its result named.

  The program is three launches among stretches of host operations. Its buffers at each boundary form a fold
  from the launch memory: a stretch of host operations applies them in order; a launch leaves its argument
  arrays as entered and its output array at what the write-backs of its grid points leave. Every execution
  terminates without a fault with every unscoped buffer at the last boundary's contents; read at the result
  buffer this gives the result, and read at the eight argument buffers it gives the arguments as launched.
-/
import proofs.«169354_j33887291965782_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program ends with the result buffer at the last boundary's contents of the fold
    through its host stretches and launches, and with the eight arguments as launched. -/
theorem run_main : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.GcnRun

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.KernelPayloads.lean ====
/-
  The three kernel bodies read at an entry, at the extended reals.

  Each body stores one value, a pure function of the blocks it loads. Read at row p and column q of the block:
  the first is the product of the scaled features with the first weight matrix,
    sum over k of (f (p, k) * m (p, k) * s (p)) * W (k, q),
  the second the rectified, rescaled aggregate, max (a (p, q) * t (p) + b (q)) 0 * s (p), and the third the product
  with the second weight matrix, rescaled and shifted, (sum over k of a (p, k) * W (k, q)) * t (p) + b (q).
  The scale factors arrive as columns of one entry per row and the biases as single rows; a change of float format
  is the identity here, and a product into a zero accumulator is the plain sum of products.
-/
import proofs.«169354_j33887291965782_1_alg».proof.Proof.Gen.KernelIdeal.Skeleton
import proofs.«169354_j33887291965782_1_alg».proof.Proof.LibLayout
import proofs.«169354_j33887291965782_1_alg».proof.Proof.LibPlainDot
import proofs.«169354_j33887291965782_1_alg».proof.Proof.LibColsJoin
import Idealize.ShloMosaic.PureOps.Ideal.Laws
import Idealize.ShloMosaic.Lib.ValueIdx
import Idealize.ShloMosaic.Lib.Pipeline.Value

noncomputable section

namespace Cert.KernelIdeal.GcnBody

open Cert.KernelIdeal Cert.KernelIdeal.Gen
open Idealize.ShloMosaic Idealize.ShloMosaic.TcCoe Idealize.ShloMosaic.ValueIdx
open scoped BigOperators

/-- The first body at (p, q): the scaled features times the first weight matrix. -/
theorem scaledProject_apply (x0 x1 : Vec Ideal S5000x128 .f32) (x2 : Vec Ideal S5000x1 .f32) (x3 : Vec Ideal S128x64 .f32)
    (p : Fin 5000) (q : Fin 64) :
    k0_pay1 (F := Ideal) x0 x1 x2 x3 (ix2 p q)
      = ∑ k : Fin 128, (x0 (ix2 p k) * x1 (ix2 p k) * x2 (ix2 p (0 : Fin 1))) * x3 (ix2 k q) := by
  unfold k0_pay1
  refine (Cert.LibPlainDot.matmul_plain_apply dot_S5000x128_S128x64_S5000x64_1_0_0_1_n_n rfl rfl rfl rfl rfl rfl none _ _ p q).trans ?_
  refine Finset.sum_congr rfl fun k _ => ?_
  refine congrArg (fun z => (x0 (ix2 p k) * x1 (ix2 p k) * z) * x3 (ix2 k q)) ?_
  refine (broadcastTo_a1_ab_apply _ broadcasts_S5000x1_S5000x128 p k).trans ?_
  exact congrFun (shapeCast_self x2 shapeCasts_S5000x1_S5000x1) _

/-- The second body at (p, q): the aggregate rescaled, shifted, rectified and rescaled again. -/
theorem rectify_apply (x0 : Vec Ideal S5000x64 .f32) (x1 x2 : Vec Ideal S5000x1 .f32) (x3 : Vec Ideal S1x64 .f32)
    (p : Fin 5000) (q : Fin 64) :
    k1_pay1 (F := Ideal) x0 x1 x2 x3 (ix2 p q)
      = max (x0 (ix2 p q) * x1 (ix2 p (0 : Fin 1)) + x3 (ix2 (0 : Fin 1) q)) (Ideal.ofBits .f32 0x00000000#32)
          * x2 (ix2 p (0 : Fin 1)) := by
  unfold k1_pay1
  have e1 : broadcastTo S5000x64 (shapeCast S5000x1 x1 shapeCasts_S5000x1_S5000x1) broadcasts_S5000x1_S5000x64 (ix2 p q)
      = x1 (ix2 p (0 : Fin 1)) :=
    (broadcastTo_a1_ab_apply _ broadcasts_S5000x1_S5000x64 p q).trans (congrFun (shapeCast_self x1 shapeCasts_S5000x1_S5000x1) _)
  have e2 : broadcastTo S5000x64 (shapeCast S5000x1 x2 shapeCasts_S5000x1_S5000x1) broadcasts_S5000x1_S5000x64 (ix2 p q)
      = x2 (ix2 p (0 : Fin 1)) :=
    (broadcastTo_a1_ab_apply _ broadcasts_S5000x1_S5000x64 p q).trans (congrFun (shapeCast_self x2 shapeCasts_S5000x1_S5000x1) _)
  have e3 : broadcastTo S5000x64 (shapeCast S1x64 x3 shapeCasts_S1x64_S1x64) broadcasts_S1x64_S5000x64 (ix2 p q)
      = x3 (ix2 (0 : Fin 1) q) :=
    (Cert.LibColsJoin.bcast_row (by decide) _ broadcasts_S1x64_S5000x64 p q).trans (congrFun (shapeCast_self x3 shapeCasts_S1x64_S1x64) _)
  have e0 : shapeCast S5000x64 x0 shapeCasts_S5000x64_S5000x64 (ix2 p q) = x0 (ix2 p q) :=
    congrFun (shapeCast_self x0 shapeCasts_S5000x64_S5000x64) _
  show max (shapeCast S5000x64 x0 shapeCasts_S5000x64_S5000x64 (ix2 p q)
        * broadcastTo S5000x64 (shapeCast S5000x1 x1 shapeCasts_S5000x1_S5000x1) broadcasts_S5000x1_S5000x64 (ix2 p q)
        + broadcastTo S5000x64 (shapeCast S1x64 x3 shapeCasts_S1x64_S1x64) broadcasts_S1x64_S5000x64 (ix2 p q))
      (Ideal.ofBits .f32 0x00000000#32)
      * broadcastTo S5000x64 (shapeCast S5000x1 x2 shapeCasts_S5000x1_S5000x1) broadcasts_S5000x1_S5000x64 (ix2 p q) = _
  rw [e0, e1, e2, e3]

/-- The third body at (p, q): the aggregate times the second weight matrix, rescaled and shifted. -/
theorem projectOut_apply (x0 : Vec Ideal S5000x64 .f32) (x1 : Vec Ideal S64x128 .f32) (x2 : Vec Ideal S5000x1 .f32)
    (x3 : Vec Ideal S1x128 .f32) (p : Fin 5000) (q : Fin 128) :
    k2_pay1 (F := Ideal) x0 x1 x2 x3 (ix2 p q)
      = (∑ k : Fin 64, x0 (ix2 p k) * x1 (ix2 k q)) * x2 (ix2 p (0 : Fin 1)) + x3 (ix2 (0 : Fin 1) q) := by
  unfold k2_pay1
  have e2 : broadcastTo S5000x128 (shapeCast S5000x1 x2 shapeCasts_S5000x1_S5000x1) broadcasts_S5000x1_S5000x128 (ix2 p q)
      = x2 (ix2 p (0 : Fin 1)) :=
    (broadcastTo_a1_ab_apply _ broadcasts_S5000x1_S5000x128 p q).trans (congrFun (shapeCast_self x2 shapeCasts_S5000x1_S5000x1) _)
  have e3 : broadcastTo S5000x128 (shapeCast S1x128 x3 shapeCasts_S1x128_S1x128) broadcasts_S1x128_S5000x128 (ix2 p q)
      = x3 (ix2 (0 : Fin 1) q) :=
    (Cert.LibColsJoin.bcast_row (by decide) _ broadcasts_S1x128_S5000x128 p q).trans (congrFun (shapeCast_self x3 shapeCasts_S1x128_S1x128) _)
  have ed : matmul dot_S5000x64_S64x128_S5000x128_1_0_0_1_n_n none
        (truncf .bf16 (shapeCast S5000x64 x0 shapeCasts_S5000x64_S5000x64) bitsLt_bf16_f32) (truncf .bf16 x1 bitsLt_bf16_f32)
        (constant (F := Ideal) S5000x128 .f32 0x00000000#32) (ix2 p q)
      = ∑ k : Fin 64, x0 (ix2 p k) * x1 (ix2 k q) := by
    refine (Cert.LibPlainDot.matmul_plain_apply dot_S5000x64_S64x128_S5000x128_1_0_0_1_n_n rfl rfl rfl rfl rfl rfl none _ _ p q).trans ?_
    refine Finset.sum_congr rfl fun k _ => ?_
    exact congrArg (fun z => z * x1 (ix2 k q)) (congrFun (shapeCast_self x0 shapeCasts_S5000x64_S5000x64) _)
  show matmul dot_S5000x64_S64x128_S5000x128_1_0_0_1_n_n none
        (truncf .bf16 (shapeCast S5000x64 x0 shapeCasts_S5000x64_S5000x64) bitsLt_bf16_f32) (truncf .bf16 x1 bitsLt_bf16_f32)
        (constant (F := Ideal) S5000x128 .f32 0x00000000#32) (ix2 p q)
      * broadcastTo S5000x128 (shapeCast S5000x1 x2 shapeCasts_S5000x1_S5000x1) broadcasts_S5000x1_S5000x128 (ix2 p q)
      + broadcastTo S5000x128 (shapeCast S1x128 x3 shapeCasts_S1x128_S1x128) broadcasts_S1x128_S5000x128 (ix2 p q) = _
  rw [ed, e2, e3]

end Cert.KernelIdeal.GcnBody

end
-- ==== Proof.GcnSpec.lean ====
/-
  The two-layer graph convolution as one function of its eight arguments, at the extended reals.

  With d_out (n) = max (number of edges leaving n) 1 and d_in (n) = max (number of edges entering n) 1, both counted
  by a scatter of ones, and the scale factors s = d_out ^ (-1/2), t = d_in ^ (-1/2) laid out as columns:

    x1  (n, h) = sum over k of (features (n, k) * mask (n, k) * s (n)) * W1 (k, h)
    a1         = the rows of x1 gathered at the edges' sources and added up at their targets
    x2  (n, h) = max (a1 (n, h) * t (n) + b1 (h)) 0 * s (n)
    a2         = the rows of x2 gathered and added up in the same way
    out (n, j) = (sum over h of a2 (n, h) * W2 (h, j)) * t (n) + b2 (j).

  The gather (with negative sources wrapped once) and the scatter are kept as whole-array operations: both programs
  apply the same ones to the same edge lists, so nothing about them has to be known.
-/
import proofs.«169354_j33887291965782_1_alg».proof.Proof.Gen.KernelIdeal
import Idealize.ShloMosaic.PureOps.Ideal
import Idealize.ShloMosaic.Lib.ValueIdx

noncomputable section

namespace Cert.KernelIdeal.Gcn

open Cert.KernelIdeal Cert.KernelIdeal.Facts₀ Cert.KernelIdeal.Facts
open Idealize.ShloMosaic Idealize.ShloMosaic.TcCoe Idealize.ShloMosaic.ValueIdx
open scoped BigOperators

/-- A node's degree along one end of the edges: the number of edges whose end it is, and at least one. -/
def degree (e : (⟨S1600000, .i32⟩ : BufTy).Contents (Elt Ideal)) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 e)
      (broadcastInDim S1600000 ![] bcast_S_S1600000 (constant (F := Ideal) S_ .f32 0x3F800000#32)))
    (broadcastInDim S100000 ![] bcast_S_S100000 (constant (F := Ideal) S_ .f32 0x3F800000#32))

/-- The scale factor degree ^ (-1/2) of every node, as a column. -/
def scaleCol (e : (⟨S1600000, .i32⟩ : BufTy).Contents (Elt Ideal)) : FVec Ideal S100000x1 .f32 :=
  shapeCast S100000x1 (Host.rsqrt (degree e)) shapeCasts_S100000_S100000x1

/-- The rows of x at the edges' sources (a negative source wrapped once), added up at the edges' targets. -/
def aggregate (x : FVec Ideal S100000x64 .f32) (src dst : (⟨S1600000, .i32⟩ : BufTy).Contents (Elt Ideal)) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The first layer's projection at node n and hidden feature h. -/
def projectAt (f m : S100000x128.Idx → EReal) (s : S100000x1.Idx → EReal) (W : S128x64.Idx → EReal)
    (n : Fin 100000) (h : Fin 64) : EReal :=
  ∑ k : Fin 128, (f (ix2 n k) * m (ix2 n k) * s (ix2 n (0 : Fin 1))) * W (ix2 k h)

/-- The first layer's projection: the masked features scaled by s, times W1. -/
def project (f m : S100000x128.Idx → EReal) (s : S100000x1.Idx → EReal) (W : S128x64.Idx → EReal) : S100000x64.Idx → EReal :=
  fun i => projectAt f m s W (i 0) (i 1)

/-- The first layer's activation at node n and hidden feature h, already scaled for the second layer. -/
def activateAt (a : S100000x64.Idx → EReal) (t s : S100000x1.Idx → EReal) (b : S1x64.Idx → EReal)
    (n : Fin 100000) (h : Fin 64) : EReal :=
  max (a (ix2 n h) * t (ix2 n (0 : Fin 1)) + b (ix2 (0 : Fin 1) h)) (Ideal.ofBits .f32 0x00000000#32) * s (ix2 n (0 : Fin 1))

/-- The first layer's activation: rescale by t, add the bias, rectify, scale by s. -/
def activate (a : S100000x64.Idx → EReal) (t s : S100000x1.Idx → EReal) (b : S1x64.Idx → EReal) : S100000x64.Idx → EReal :=
  fun i => activateAt a t s b (i 0) (i 1)

/-- The second layer's output at node n and feature j. -/
def outputAt (a : S100000x64.Idx → EReal) (W : S64x128.Idx → EReal) (t : S100000x1.Idx → EReal) (b : S1x128.Idx → EReal)
    (n : Fin 100000) (j : Fin 128) : EReal :=
  (∑ k : Fin 64, a (ix2 n k) * W (ix2 k j)) * t (ix2 n (0 : Fin 1)) + b (ix2 (0 : Fin 1) j)

/-- The second layer's output: the aggregate times W2, rescaled by t, plus the bias. -/
def output (a : S100000x64.Idx → EReal) (W : S64x128.Idx → EReal) (t : S100000x1.Idx → EReal) (b : S1x128.Idx → EReal) :
    S100000x128.Idx → EReal :=
  fun i => outputAt a W t b (i 0) (i 1)

/-- The whole network as a function of the eight arguments. -/
def network (features mask : S100000x128.Idx → EReal) (W1 : S128x64.Idx → EReal) (b1 : S64.Idx → EReal)
    (W2 : S64x128.Idx → EReal) (b2 : S128.Idx → EReal) (src dst : (⟨S1600000, .i32⟩ : BufTy).Contents (Elt Ideal)) :
    S100000x128.Idx → EReal :=
  output
    (aggregate
      (activate
        (aggregate (project features mask (scaleCol src) W1) src dst)
        (scaleCol dst) (scaleCol src) (shapeCast S1x64 b1 shapeCasts_S64_S1x64))
      src dst)
    W2 (scaleCol dst) (shapeCast S1x128 b2 shapeCasts_S128_S1x128)

end Cert.KernelIdeal.Gcn

end
-- ==== Proof.RegionProject.lean ====
/-
  The first launch: the array it leaves.

  The launch walks 20 blocks of 5000 rows. At block t it reads rows 5000 t … 5000 t + 4999 of the features, of the mask
  and of the scale column, and the whole first weight matrix, and writes rows 5000 t … 5000 t + 4999 of its output. What
  it writes at row p, column h of the block is the projection at node 5000 t + p and feature h; the 20 blocks tile
  the 100000 rows, so the output array ends as the projection of the arrays the launch was entered with.
-/
import proofs.«169354_j33887291965782_1_alg».proof.Proof.Gen.KernelIdeal.Frame
import proofs.«169354_j33887291965782_1_alg».proof.Proof.KernelPayloads
import proofs.«169354_j33887291965782_1_alg».proof.Proof.GcnSpec

set_option maxRecDepth 16384

noncomputable section

namespace Cert.KernelIdeal.GcnProject

open Cert.KernelIdeal Cert.KernelIdeal.Gen Cert.KernelIdeal.Gcn Cert.KernelIdeal.GcnBody
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The block each window holds at grid point t: the row-blocked windows hold block t of their rows, the weight
    matrix its one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point t stores at row p and column h of its block is the projection at node 5000 t + p. -/
theorem stored_entry_of (A0 A1 : S100000x128.Idx → EReal) (A2 : S100000x1.Idx → EReal) (A3 : S128x64.Idx → EReal)
    (t : Fin cfg0.N) (j : S5000x64.Idx) :
    k0_pay1 (F := Ideal) (fun y => A0 (((cfg0.win 0).blk t).view.emb y)) (fun y => A1 (((cfg0.win 1).blk t).view.emb y))
        (fun y => A2 (((cfg0.win 2).blk t).view.emb y)) (fun y => A3 (((cfg0.win 3).blk t).view.emb y)) j
      = project A0 A1 A2 A3 (((cfg0.win 4).blk t).view.emb j) := by
  obtain ⟨p, h, rfl⟩ : ∃ (p : Fin 5000) (h : Fin 64), j = ix2 p h := ⟨j 0, j 1, eq_ix2 j⟩
  obtain ⟨a0, a1, b0, b1, c0, c1, d0, d1, e0, e1⟩ := blockIndex t
  have ht : t.val < 20 := lt_of_lt_of_eq t.isLt N_0
  have hp : p.val < 5000 := p.isLt
  have hn : t.val * 5000 + p.val < 100000 := by omega
  have E4 : ((cfg0.win 4).blk t).view.emb (ix2 p h) = (ix2 (⟨t.val * 5000 + p.val, hn⟩ : Fin 100000) h : S100000x64.Idx) := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * h.val = h.val; omega
  have E0 : ∀ k : Fin 128, ((cfg0.win 0).blk t).view.emb (ix2 p k) = (ix2 (⟨t.val * 5000 + p.val, hn⟩ : Fin 100000) k : S100000x128.Idx) := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have E1 : ∀ k : Fin 128, ((cfg0.win 1).blk t).view.emb (ix2 p k) = (ix2 (⟨t.val * 5000 + p.val, hn⟩ : Fin 100000) k : S100000x128.Idx) := fun k => by
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  have E2 : ((cfg0.win 2).blk t).view.emb (ix2 p (0 : Fin 1)) = (ix2 (⟨t.val * 5000 + p.val, hn⟩ : Fin 100000) (0 : Fin 1) : S100000x1.Idx) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have E3 : ∀ k : Fin 128, ((cfg0.win 3).blk t).view.emb (ix2 k h) = (ix2 k h : S128x64.Idx) := fun k => by
    funext a; apply Fin.ext
    match a with
    | ⟨0, _⟩ => show win0_3.index t (0 : Fin 2) * 128 + 1 * k.val = k.val; omega
    | ⟨1, _⟩ => show win0_3.index t (1 : Fin 2) * 64 + 1 * h.val = h.val; omega
  refine (scaledProject_apply (fun y => A0 (((cfg0.win 0).blk t).view.emb y)) (fun y => A1 (((cfg0.win 1).blk t).view.emb y))
    (fun y => A2 (((cfg0.win 2).blk t).view.emb y)) (fun y => A3 (((cfg0.win 3).blk t).view.emb y)) p h).trans ?_
  rw [E4]
  show (∑ k : Fin 128, (A0 (((cfg0.win 0).blk t).view.emb (ix2 p k)) * A1 (((cfg0.win 1).blk t).view.emb (ix2 p k))
          * A2 (((cfg0.win 2).blk t).view.emb (ix2 p (0 : Fin 1)))) * A3 (((cfg0.win 3).blk t).view.emb (ix2 k h)))
      = ∑ k : Fin 128, (A0 (ix2 (⟨t.val * 5000 + p.val, hn⟩ : Fin 100000) k) * A1 (ix2 (⟨t.val * 5000 + p.val, hn⟩ : Fin 100000) k)
          * A2 (ix2 (⟨t.val * 5000 + p.val, hn⟩ : Fin 100000) (0 : Fin 1))) * A3 (ix2 k h)
  exact Finset.sum_congr rfl fun k _ => by rw [E0 k, E1 k, E2, E3 k]

/-- The same at the arrays the launch was entered with. -/
theorem stored_entry (c : Dev nD) (t : Fin cfg0.N) (j : S5000x64.Idx) :
    k0_pay1 (F := Ideal) (iblk0 V c 0 t) (iblk0 V c 1 t) (iblk0 V c 2 t) (iblk0 V c 3 t) j
      = project (V c main_arg0) (V c main_arg1) (V c main_v12) (V c main_arg2) (((cfg0.win 4).blk t).view.emb j) :=
  stored_entry_of (V c main_arg0) (V c main_arg1) (V c main_v12) (V c main_arg2) t j

/-- What grid point t writes back is block t of the projection of the arrays the launch was entered with. -/
theorem flushed_eq (c : Dev nD) (t : Fin cfg0.N) :
    (dat0 V c).flushed 4 t
      = ((cfg0.win 4).blk t).view.read (Elt Ideal) (project (V c main_arg0) (V c main_arg1) (V c main_v12) (V c main_arg2)) := by
  show (cfg0.win 4).cut (grid0.coords t) ((dat0 V c).after 4 t) = _
  rw [after0_4]
  unfold out0_4
  rw [View.canon_unit_zero zeros]
  simp only [View.ld_unit_zero (S := S5000x128) zeros, View.ld_unit_zero (S := S5000x1) zeros, View.ld_unit_zero (S := S128x64) zeros]
  funext j
  exact stored_entry V c t j

/-- An entry of the output array lies in grid point t's block iff its coordinates lie in the block's ranges. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v17).slice (win0_4.rect t)).set ↔ _
  rw [View.set_slice_whole, Rect.mem_set_unit]
  exact Iff.rfl

/-- Every entry of the output array is in some grid point's block: row r is in block r / 5000. -/
theorem covered (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hq : (i 0).val / 5000 < cfg0.N := lt_of_lt_of_eq (by omega : (i 0).val / 5000 < 20) N_0.symm
  refine ⟨⟨(i 0).val / 5000, hq⟩, flush0_4 _, ?_⟩
  rw [mem_blk]
  obtain ⟨a0, a1, b0, b1, c0, c1, d0, d1, e0, e1⟩ := blockIndex ⟨(i 0).val / 5000, hq⟩
  have e0' : win0_4.index ⟨(i 0).val / 5000, hq⟩ (0 : Fin 2) = (i 0).val / 5000 := e0
  intro a
  match a with
  | ⟨0, _⟩ =>
    show win0_4.index ⟨(i 0).val / 5000, hq⟩ (0 : Fin 2) * 5000 ≤ (i 0).val ∧ (i 0).val < win0_4.index ⟨(i 0).val / 5000, hq⟩ (0 : Fin 2) * 5000 + 5000
    omega
  | ⟨1, _⟩ =>
    show win0_4.index ⟨(i 0).val / 5000, hq⟩ (1 : Fin 2) * 64 ≤ (i 1).val ∧ (i 1).val < win0_4.index ⟨(i 0).val / 5000, hq⟩ (1 : Fin 2) * 64 + 64
    omega

/-- The output array after the launch is the projection of the arrays the launch was entered with. -/
theorem final (c : Dev nD) :
    (dat0 V c).arrAt 4 cfg0.N = project (V c main_arg0) (V c main_arg1) (V c main_v12) (V c main_arg2) :=
  (dat0 V c).arrAt_eq_of_cover 4 _ (fun t _ => flushed_eq V c t) covered

end Cert.KernelIdeal.GcnProject

end
-- ==== Proof.RegionActivate.lean ====
/-
  The second launch: the array it leaves.

  The launch walks 20 blocks of 5000 rows. At block t it reads rows 5000 t … 5000 t + 4999 of the first aggregate and
  of the two scale columns, and the bias row, and writes the same rows of its output. What it writes at row p, column h
  of the block is the activation at node 5000 t + p and feature h; the 20 blocks tile the 100000 rows, so the output
  array ends as the activation of the arrays the launch was entered with.
-/
import proofs.«169354_j33887291965782_1_alg».proof.Proof.Gen.KernelIdeal.Frame
import proofs.«169354_j33887291965782_1_alg».proof.Proof.KernelPayloads
import proofs.«169354_j33887291965782_1_alg».proof.Proof.GcnSpec

set_option maxRecDepth 16384

noncomputable section

namespace Cert.KernelIdeal.GcnActivate

open Cert.KernelIdeal Cert.KernelIdeal.Gen Cert.KernelIdeal.Gcn Cert.KernelIdeal.GcnBody
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The block each window holds at grid point t: the row-blocked windows hold block t of their rows, the bias row
    its one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point t stores at row p and column h of its block is the activation at node 5000 t + p. -/
theorem stored_entry_of (A0 : S100000x64.Idx → EReal) (A1 A2 : S100000x1.Idx → EReal) (A3 : S1x64.Idx → EReal)
    (t : Fin cfg1.N) (j : S5000x64.Idx) :
    k1_pay1 (F := Ideal) (fun y => A0 (((cfg1.win 0).blk t).view.emb y)) (fun y => A1 (((cfg1.win 1).blk t).view.emb y))
        (fun y => A2 (((cfg1.win 2).blk t).view.emb y)) (fun y => A3 (((cfg1.win 3).blk t).view.emb y)) j
      = activate A0 A1 A2 A3 (((cfg1.win 4).blk t).view.emb j) := by
  obtain ⟨p, h, rfl⟩ : ∃ (p : Fin 5000) (h : Fin 64), j = ix2 p h := ⟨j 0, j 1, eq_ix2 j⟩
  obtain ⟨a0, a1, b0, b1, c0, c1, d0, d1, e0, e1⟩ := blockIndex t
  have ht : t.val < 20 := lt_of_lt_of_eq t.isLt N_1
  have hp : p.val < 5000 := p.isLt
  have hn : t.val * 5000 + p.val < 100000 := by omega
  have E4 : ((cfg1.win 4).blk t).view.emb (ix2 p h) = (ix2 (⟨t.val * 5000 + p.val, hn⟩ : Fin 100000) h : S100000x64.Idx) := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * h.val = h.val; omega
  have E0 : ((cfg1.win 0).blk t).view.emb (ix2 p h) = (ix2 (⟨t.val * 5000 + p.val, hn⟩ : Fin 100000) h : S100000x64.Idx) := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * h.val = h.val; omega
  have E1 : ((cfg1.win 1).blk t).view.emb (ix2 p (0 : Fin 1)) = (ix2 (⟨t.val * 5000 + p.val, hn⟩ : Fin 100000) (0 : Fin 1) : S100000x1.Idx) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have E2 : ((cfg1.win 2).blk t).view.emb (ix2 p (0 : Fin 1)) = (ix2 (⟨t.val * 5000 + p.val, hn⟩ : Fin 100000) (0 : Fin 1) : S100000x1.Idx) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have E3 : ((cfg1.win 3).blk t).view.emb (ix2 (0 : Fin 1) h) = (ix2 (0 : Fin 1) h : S1x64.Idx) := by
    funext a; apply Fin.ext
    match a with
    | ⟨0, _⟩ => show win1_3.index t (0 : Fin 2) * 1 + 1 * 0 = 0; omega
    | ⟨1, _⟩ => show win1_3.index t (1 : Fin 2) * 64 + 1 * h.val = h.val; omega
  refine (rectify_apply (fun y => A0 (((cfg1.win 0).blk t).view.emb y)) (fun y => A1 (((cfg1.win 1).blk t).view.emb y))
    (fun y => A2 (((cfg1.win 2).blk t).view.emb y)) (fun y => A3 (((cfg1.win 3).blk t).view.emb y)) p h).trans ?_
  rw [E4]
  show max (A0 (((cfg1.win 0).blk t).view.emb (ix2 p h)) * A1 (((cfg1.win 1).blk t).view.emb (ix2 p (0 : Fin 1)))
          + A3 (((cfg1.win 3).blk t).view.emb (ix2 (0 : Fin 1) h))) (Ideal.ofBits .f32 0x00000000#32)
        * A2 (((cfg1.win 2).blk t).view.emb (ix2 p (0 : Fin 1)))
      = max (A0 (ix2 (⟨t.val * 5000 + p.val, hn⟩ : Fin 100000) h) * A1 (ix2 (⟨t.val * 5000 + p.val, hn⟩ : Fin 100000) (0 : Fin 1))
          + A3 (ix2 (0 : Fin 1) h)) (Ideal.ofBits .f32 0x00000000#32)
        * A2 (ix2 (⟨t.val * 5000 + p.val, hn⟩ : Fin 100000) (0 : Fin 1))
  rw [E0, E1, E2, E3]

/-- The same at the arrays the launch was entered with. -/
theorem stored_entry (c : Dev nD) (t : Fin cfg1.N) (j : S5000x64.Idx) :
    k1_pay1 (F := Ideal) (iblk1 V c 0 t) (iblk1 V c 1 t) (iblk1 V c 2 t) (iblk1 V c 3 t) j
      = activate (V c main_v27) (V c main_v14) (V c main_v12) (V c main_v15) (((cfg1.win 4).blk t).view.emb j) :=
  stored_entry_of (V c main_v27) (V c main_v14) (V c main_v12) (V c main_v15) t j

/-- What grid point t writes back is block t of the activation of the arrays the launch was entered with. -/
theorem flushed_eq (c : Dev nD) (t : Fin cfg1.N) :
    (dat1 V c).flushed 4 t
      = ((cfg1.win 4).blk t).view.read (Elt Ideal) (activate (V c main_v27) (V c main_v14) (V c main_v12) (V c main_v15)) := by
  show (cfg1.win 4).cut (grid1.coords t) ((dat1 V c).after 4 t) = _
  rw [after1_4]
  unfold out1_4
  rw [View.canon_unit_zero zeros]
  simp only [View.ld_unit_zero (S := S5000x64) zeros, View.ld_unit_zero (S := S5000x1) zeros, View.ld_unit_zero (S := S1x64) zeros]
  funext j
  exact stored_entry V c t j

/-- An entry of the output array lies in grid point t's block iff its coordinates lie in the block's ranges. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- Every entry of the output array is in some grid point's block: row r is in block r / 5000. -/
theorem covered (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hq : (i 0).val / 5000 < cfg1.N := lt_of_lt_of_eq (by omega : (i 0).val / 5000 < 20) N_1.symm
  refine ⟨⟨(i 0).val / 5000, hq⟩, flush1_4 _, ?_⟩
  rw [mem_blk]
  obtain ⟨a0, a1, b0, b1, c0, c1, d0, d1, e0, e1⟩ := blockIndex ⟨(i 0).val / 5000, hq⟩
  have e0' : win1_4.index ⟨(i 0).val / 5000, hq⟩ (0 : Fin 2) = (i 0).val / 5000 := e0
  intro a
  match a with
  | ⟨0, _⟩ =>
    show win1_4.index ⟨(i 0).val / 5000, hq⟩ (0 : Fin 2) * 5000 ≤ (i 0).val ∧ (i 0).val < win1_4.index ⟨(i 0).val / 5000, hq⟩ (0 : Fin 2) * 5000 + 5000
    omega
  | ⟨1, _⟩ =>
    show win1_4.index ⟨(i 0).val / 5000, hq⟩ (1 : Fin 2) * 64 ≤ (i 1).val ∧ (i 1).val < win1_4.index ⟨(i 0).val / 5000, hq⟩ (1 : Fin 2) * 64 + 64
    omega

/-- The output array after the launch is the activation of the arrays the launch was entered with. -/
theorem final (c : Dev nD) :
    (dat1 V c).arrAt 4 cfg1.N = activate (V c main_v27) (V c main_v14) (V c main_v12) (V c main_v15) :=
  (dat1 V c).arrAt_eq_of_cover 4 _ (fun t _ => flushed_eq V c t) covered

end Cert.KernelIdeal.GcnActivate

end
-- ==== Proof.RegionOutput.lean ====
/-
  The third launch: the array it leaves.

  The launch walks 20 blocks of 5000 rows. At block t it reads rows 5000 t … 5000 t + 4999 of the second aggregate and
  of the scale column, the whole second weight matrix and the bias row, and writes the same rows of the result. What it
  writes at row p, column j of the block is the output at node 5000 t + p and feature j; the 20 blocks tile the 100000
  rows, so the result array ends as the output of the arrays the launch was entered with.
-/
import proofs.«169354_j33887291965782_1_alg».proof.Proof.Gen.KernelIdeal.Frame
import proofs.«169354_j33887291965782_1_alg».proof.Proof.KernelPayloads
import proofs.«169354_j33887291965782_1_alg».proof.Proof.GcnSpec

set_option maxRecDepth 16384

noncomputable section

namespace Cert.KernelIdeal.GcnOutput

open Cert.KernelIdeal Cert.KernelIdeal.Gen Cert.KernelIdeal.Gcn Cert.KernelIdeal.GcnBody
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The block each window holds at grid point t: the row-blocked windows hold block t of their rows, the weight
    matrix and the bias row their one block. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point t stores at row p and column j of its block is the output at node 5000 t + p. -/
theorem stored_entry_of (A0 : S100000x64.Idx → EReal) (A1 : S64x128.Idx → EReal) (A2 : S100000x1.Idx → EReal) (A3 : S1x128.Idx → EReal)
    (t : Fin cfg2.N) (j : S5000x128.Idx) :
    k2_pay1 (F := Ideal) (fun y => A0 (((cfg2.win 0).blk t).view.emb y)) (fun y => A1 (((cfg2.win 1).blk t).view.emb y))
        (fun y => A2 (((cfg2.win 2).blk t).view.emb y)) (fun y => A3 (((cfg2.win 3).blk t).view.emb y)) j
      = output A0 A1 A2 A3 (((cfg2.win 4).blk t).view.emb j) := by
  obtain ⟨p, q, rfl⟩ : ∃ (p : Fin 5000) (q : Fin 128), j = ix2 p q := ⟨j 0, j 1, eq_ix2 j⟩
  obtain ⟨a0, a1, b0, b1, c0, c1, d0, d1, e0, e1⟩ := blockIndex t
  have ht : t.val < 20 := lt_of_lt_of_eq t.isLt N_2
  have hp : p.val < 5000 := p.isLt
  have hn : t.val * 5000 + p.val < 100000 := by omega
  have E4 : ((cfg2.win 4).blk t).view.emb (ix2 p q) = (ix2 (⟨t.val * 5000 + p.val, hn⟩ : Fin 100000) q : S100000x128.Idx) := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  have E0 : ∀ k : Fin 64, ((cfg2.win 0).blk t).view.emb (ix2 p k) = (ix2 (⟨t.val * 5000 + p.val, hn⟩ : Fin 100000) k : S100000x64.Idx) := fun k => by
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  have E1 : ∀ k : Fin 64, ((cfg2.win 1).blk t).view.emb (ix2 k q) = (ix2 k q : S64x128.Idx) := fun k => by
    funext a; apply Fin.ext
    match a with
    | ⟨0, _⟩ => show win2_1.index t (0 : Fin 2) * 64 + 1 * k.val = k.val; omega
    | ⟨1, _⟩ => show win2_1.index t (1 : Fin 2) * 128 + 1 * q.val = q.val; omega
  have E2 : ((cfg2.win 2).blk t).view.emb (ix2 p (0 : Fin 1)) = (ix2 (⟨t.val * 5000 + p.val, hn⟩ : Fin 100000) (0 : Fin 1) : S100000x1.Idx) := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have E3 : ((cfg2.win 3).blk t).view.emb (ix2 (0 : Fin 1) q) = (ix2 (0 : Fin 1) q : S1x128.Idx) := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  refine (projectOut_apply (fun y => A0 (((cfg2.win 0).blk t).view.emb y)) (fun y => A1 (((cfg2.win 1).blk t).view.emb y))
    (fun y => A2 (((cfg2.win 2).blk t).view.emb y)) (fun y => A3 (((cfg2.win 3).blk t).view.emb y)) p q).trans ?_
  rw [E4]
  show (∑ k : Fin 64, A0 (((cfg2.win 0).blk t).view.emb (ix2 p k)) * A1 (((cfg2.win 1).blk t).view.emb (ix2 k q)))
        * A2 (((cfg2.win 2).blk t).view.emb (ix2 p (0 : Fin 1))) + A3 (((cfg2.win 3).blk t).view.emb (ix2 (0 : Fin 1) q))
      = (∑ k : Fin 64, A0 (ix2 (⟨t.val * 5000 + p.val, hn⟩ : Fin 100000) k) * A1 (ix2 k q))
        * A2 (ix2 (⟨t.val * 5000 + p.val, hn⟩ : Fin 100000) (0 : Fin 1)) + A3 (ix2 (0 : Fin 1) q)
  rw [E2, E3]
  refine congrArg (fun z => z * A2 (ix2 (⟨t.val * 5000 + p.val, hn⟩ : Fin 100000) (0 : Fin 1)) + A3 (ix2 (0 : Fin 1) q)) ?_
  exact Finset.sum_congr rfl fun k _ => by rw [E0 k, E1 k]

/-- The same at the arrays the launch was entered with. -/
theorem stored_entry (c : Dev nD) (t : Fin cfg2.N) (j : S5000x128.Idx) :
    k2_pay1 (F := Ideal) (iblk2 V c 0 t) (iblk2 V c 1 t) (iblk2 V c 2 t) (iblk2 V c 3 t) j
      = output (V c main_v38) (V c main_arg4) (V c main_v14) (V c main_v16) (((cfg2.win 4).blk t).view.emb j) :=
  stored_entry_of (V c main_v38) (V c main_arg4) (V c main_v14) (V c main_v16) t j

/-- What grid point t writes back is block t of the output of the arrays the launch was entered with. -/
theorem flushed_eq (c : Dev nD) (t : Fin cfg2.N) :
    (dat2 V c).flushed 4 t
      = ((cfg2.win 4).blk t).view.read (Elt Ideal) (output (V c main_v38) (V c main_arg4) (V c main_v14) (V c main_v16)) := by
  show (cfg2.win 4).cut (grid2.coords t) ((dat2 V c).after 4 t) = _
  rw [after2_4]
  unfold out2_4
  rw [View.canon_unit_zero zeros]
  simp only [View.ld_unit_zero (S := S5000x64) zeros, View.ld_unit_zero (S := S64x128) zeros, View.ld_unit_zero (S := S5000x1) zeros,
    View.ld_unit_zero (S := S1x128) zeros]
  funext j
  exact stored_entry V c t j

/-- An entry of the result array lies in grid point t's block iff its coordinates lie in the block's ranges. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v39).slice (win2_4.rect t)).set ↔ _
  rw [View.set_slice_whole, Rect.mem_set_unit]
  exact Iff.rfl

/-- Every entry of the result array is in some grid point's block: row r is in block r / 5000. -/
theorem covered (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hq : (i 0).val / 5000 < cfg2.N := lt_of_lt_of_eq (by omega : (i 0).val / 5000 < 20) N_2.symm
  refine ⟨⟨(i 0).val / 5000, hq⟩, flush2_4 _, ?_⟩
  rw [mem_blk]
  obtain ⟨a0, a1, b0, b1, c0, c1, d0, d1, e0, e1⟩ := blockIndex ⟨(i 0).val / 5000, hq⟩
  have e0' : win2_4.index ⟨(i 0).val / 5000, hq⟩ (0 : Fin 2) = (i 0).val / 5000 := e0
  intro a
  match a with
  | ⟨0, _⟩ =>
    show win2_4.index ⟨(i 0).val / 5000, hq⟩ (0 : Fin 2) * 5000 ≤ (i 0).val ∧ (i 0).val < win2_4.index ⟨(i 0).val / 5000, hq⟩ (0 : Fin 2) * 5000 + 5000
    omega
  | ⟨1, _⟩ =>
    show win2_4.index ⟨(i 0).val / 5000, hq⟩ (1 : Fin 2) * 128 ≤ (i 1).val ∧ (i 1).val < win2_4.index ⟨(i 0).val / 5000, hq⟩ (1 : Fin 2) * 128 + 128
    omega

/-- The result array after the launch is the output of the arrays the launch was entered with. -/
theorem final (c : Dev nD) :
    (dat2 V c).arrAt 4 cfg2.N = output (V c main_v38) (V c main_arg4) (V c main_v14) (V c main_v16) :=
  (dat2 V c).arrAt_eq_of_cover 4 _ (fun t _ => flushed_eq V c t) covered

end Cert.KernelIdeal.GcnOutput

end
-- ==== Proof.KernelChain.lean ====
/-
  The kernel program's result is the network of its arguments.

  The buffers at the boundaries between the program's host stretches and launches form a fold from the launch memory.
  Walking it forward: the first stretch computes the two scale columns from the degree counts and lays the biases out
  as rows, and touches no argument; the first launch leaves the projection; the second stretch gathers and adds it up
  along the edges; the second launch leaves the activation; the third stretch gathers and adds that up; the third launch
  leaves the output. A stretch leaves alone every buffer it does not write, and a launch every buffer that is not its
  output, so each array a later step reads still holds what the earlier step left there.
-/
import proofs.«169354_j33887291965782_1_alg».proof.Proof.Gen.KernelIdeal.Frame
import proofs.«169354_j33887291965782_1_alg».proof.Proof.RegionProject
import proofs.«169354_j33887291965782_1_alg».proof.Proof.RegionActivate
import proofs.«169354_j33887291965782_1_alg».proof.Proof.RegionOutput
import proofs.«169354_j33887291965782_1_alg».proof.Proof.GcnSpec
import Idealize.ShloMosaic.Lib.StableHlo.Run

set_option maxRecDepth 16384

noncomputable section

namespace Cert.KernelIdeal.GcnChain

open Cert.KernelIdeal Cert.KernelIdeal.Gen Cert.KernelIdeal.Gcn
open Idealize.ShloMosaic Idealize.ShloMosaic.TcCoe Idealize.ShloMosaic.Tactic Idealize.SL.Sem Idealize.ShloMosaic.StableHlo

/-! ## What each host stretch computes, from any entry contents -/

section Stretches
variable (X : Valuation τ sig (Elt Ideal))

theorem first_srcScale : StableHlo.after hostOps0 X (Proc.devRef .tc main_v12) = scaleCol (X (Proc.devRef .tc main_arg6)) := by
  after_results; rfl
theorem first_dstScale : StableHlo.after hostOps0 X (Proc.devRef .tc main_v14) = scaleCol (X (Proc.devRef .tc main_arg7)) := by
  after_results; rfl
theorem first_bias1 : StableHlo.after hostOps0 X (Proc.devRef .tc main_v15)
    = shapeCast S1x64 (X (Proc.devRef .tc main_arg3)) shapeCasts_S64_S1x64 := by
  after_results; rfl
theorem first_bias2 : StableHlo.after hostOps0 X (Proc.devRef .tc main_v16)
    = shapeCast S1x128 (X (Proc.devRef .tc main_arg5)) shapeCasts_S128_S1x128 := by
  after_results; rfl
theorem first_arg0 : StableHlo.after hostOps0 X (Proc.devRef .tc main_arg0) = X (Proc.devRef .tc main_arg0) := by after_results
theorem first_arg1 : StableHlo.after hostOps0 X (Proc.devRef .tc main_arg1) = X (Proc.devRef .tc main_arg1) := by after_results
theorem first_arg2 : StableHlo.after hostOps0 X (Proc.devRef .tc main_arg2) = X (Proc.devRef .tc main_arg2) := by after_results
theorem first_arg4 : StableHlo.after hostOps0 X (Proc.devRef .tc main_arg4) = X (Proc.devRef .tc main_arg4) := by after_results
theorem first_arg6 : StableHlo.after hostOps0 X (Proc.devRef .tc main_arg6) = X (Proc.devRef .tc main_arg6) := by after_results
theorem first_arg7 : StableHlo.after hostOps0 X (Proc.devRef .tc main_arg7) = X (Proc.devRef .tc main_arg7) := by after_results

theorem second_aggregate : StableHlo.after hostOps1 X (Proc.devRef .tc main_v27)
    = aggregate (X (Proc.devRef .tc main_v17)) (X (Proc.devRef .tc main_arg6)) (X (Proc.devRef .tc main_arg7)) := by
  after_results; rfl
theorem second_v12 : StableHlo.after hostOps1 X (Proc.devRef .tc main_v12) = X (Proc.devRef .tc main_v12) := by after_results
theorem second_v14 : StableHlo.after hostOps1 X (Proc.devRef .tc main_v14) = X (Proc.devRef .tc main_v14) := by after_results
theorem second_v15 : StableHlo.after hostOps1 X (Proc.devRef .tc main_v15) = X (Proc.devRef .tc main_v15) := by after_results
theorem second_v16 : StableHlo.after hostOps1 X (Proc.devRef .tc main_v16) = X (Proc.devRef .tc main_v16) := by after_results
theorem second_arg4 : StableHlo.after hostOps1 X (Proc.devRef .tc main_arg4) = X (Proc.devRef .tc main_arg4) := by after_results
theorem second_arg6 : StableHlo.after hostOps1 X (Proc.devRef .tc main_arg6) = X (Proc.devRef .tc main_arg6) := by after_results
theorem second_arg7 : StableHlo.after hostOps1 X (Proc.devRef .tc main_arg7) = X (Proc.devRef .tc main_arg7) := by after_results

theorem third_aggregate : StableHlo.after hostOps2 X (Proc.devRef .tc main_v38)
    = aggregate (X (Proc.devRef .tc main_v28)) (X (Proc.devRef .tc main_arg6)) (X (Proc.devRef .tc main_arg7)) := by
  after_results; rfl
theorem third_v14 : StableHlo.after hostOps2 X (Proc.devRef .tc main_v14) = X (Proc.devRef .tc main_v14) := by after_results
theorem third_v16 : StableHlo.after hostOps2 X (Proc.devRef .tc main_v16) = X (Proc.devRef .tc main_v16) := by after_results
theorem third_arg4 : StableHlo.after hostOps2 X (Proc.devRef .tc main_arg4) = X (Proc.devRef .tc main_arg4) := by after_results

end Stretches

/-! ## The fold, boundary by boundary -/

variable (m : (ℓ : Loc nD τ sig) → Buf (Elt Ideal) ℓ) (ρ : Dev nD → PrngReg) (c : Dev nD)

/-! ### After the first stretch -/

theorem W1_arg0 : W1 m ρ c (Proc.devRef .tc main_arg0) = m ((c : Thread nD τ).loc main_arg0) := first_arg0 (W0 m ρ c)
theorem W1_arg1 : W1 m ρ c (Proc.devRef .tc main_arg1) = m ((c : Thread nD τ).loc main_arg1) := first_arg1 (W0 m ρ c)
theorem W1_arg2 : W1 m ρ c (Proc.devRef .tc main_arg2) = m ((c : Thread nD τ).loc main_arg2) := first_arg2 (W0 m ρ c)
theorem W1_arg4 : W1 m ρ c (Proc.devRef .tc main_arg4) = m ((c : Thread nD τ).loc main_arg4) := first_arg4 (W0 m ρ c)
theorem W1_arg6 : W1 m ρ c (Proc.devRef .tc main_arg6) = m ((c : Thread nD τ).loc main_arg6) := first_arg6 (W0 m ρ c)
theorem W1_arg7 : W1 m ρ c (Proc.devRef .tc main_arg7) = m ((c : Thread nD τ).loc main_arg7) := first_arg7 (W0 m ρ c)
theorem W1_v12 : W1 m ρ c (Proc.devRef .tc main_v12) = scaleCol (m ((c : Thread nD τ).loc main_arg6)) := first_srcScale (W0 m ρ c)
theorem W1_v14 : W1 m ρ c (Proc.devRef .tc main_v14) = scaleCol (m ((c : Thread nD τ).loc main_arg7)) := first_dstScale (W0 m ρ c)
theorem W1_v15 : W1 m ρ c (Proc.devRef .tc main_v15) = shapeCast S1x64 (m ((c : Thread nD τ).loc main_arg3)) shapeCasts_S64_S1x64 :=
  first_bias1 (W0 m ρ c)
theorem W1_v16 : W1 m ρ c (Proc.devRef .tc main_v16) = shapeCast S1x128 (m ((c : Thread nD τ).loc main_arg5)) shapeCasts_S128_S1x128 :=
  first_bias2 (W0 m ρ c)

/-! ### After the first launch -/

theorem W2_v17 : W2 m ρ c (Proc.devRef .tc main_v17)
    = project (m ((c : Thread nD τ).loc main_arg0)) (m ((c : Thread nD τ).loc main_arg1))
        (scaleCol (m ((c : Thread nD τ).loc main_arg6))) (m ((c : Thread nD τ).loc main_arg2)) := by
  refine (W2_arr m ρ c 4).trans ((GcnProject.final (V1 m ρ) c).trans ?_)
  show project (W1 m ρ c (Proc.devRef .tc main_arg0)) (W1 m ρ c (Proc.devRef .tc main_arg1)) (W1 m ρ c (Proc.devRef .tc main_v12))
    (W1 m ρ c (Proc.devRef .tc main_arg2)) = _
  rw [W1_arg0, W1_arg1, W1_v12, W1_arg2]
theorem W2_v12 : W2 m ρ c (Proc.devRef .tc main_v12) = scaleCol (m ((c : Thread nD τ).loc main_arg6)) :=
  ((W2_arr m ρ c 2).trans (((dat0 (V1 m ρ) c).arrAt_in 2 rfl _).trans (A_eq0 (V1 m ρ) c 2))).trans (W1_v12 m ρ c)
theorem W2_v14 : W2 m ρ c (Proc.devRef .tc main_v14) = scaleCol (m ((c : Thread nD τ).loc main_arg7)) :=
  (W2_of_ne m ρ c main_v14 (by decide)).trans (W1_v14 m ρ c)
theorem W2_v15 : W2 m ρ c (Proc.devRef .tc main_v15) = shapeCast S1x64 (m ((c : Thread nD τ).loc main_arg3)) shapeCasts_S64_S1x64 :=
  (W2_of_ne m ρ c main_v15 (by decide)).trans (W1_v15 m ρ c)
theorem W2_v16 : W2 m ρ c (Proc.devRef .tc main_v16) = shapeCast S1x128 (m ((c : Thread nD τ).loc main_arg5)) shapeCasts_S128_S1x128 :=
  (W2_of_ne m ρ c main_v16 (by decide)).trans (W1_v16 m ρ c)
theorem W2_arg4 : W2 m ρ c (Proc.devRef .tc main_arg4) = m ((c : Thread nD τ).loc main_arg4) :=
  (W2_of_ne m ρ c main_arg4 (by decide)).trans (W1_arg4 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

/-! ### After the second stretch -/

/-- The first aggregate. -/
abbrev agg1 : FVec Ideal S100000x64 .f32 :=
  aggregate
    (project (m ((c : Thread nD τ).loc main_arg0)) (m ((c : Thread nD τ).loc main_arg1))
      (scaleCol (m ((c : Thread nD τ).loc main_arg6))) (m ((c : Thread nD τ).loc main_arg2)))
    (m ((c : Thread nD τ).loc main_arg6)) (m ((c : Thread nD τ).loc main_arg7))

theorem W3_v27 : W3 m ρ c (Proc.devRef .tc main_v27) = agg1 m c := by
  refine (second_aggregate (W2 m ρ c)).trans ?_
  rw [W2_v17, W2_arg6, W2_arg7]
theorem W3_v12 : W3 m ρ c (Proc.devRef .tc main_v12) = scaleCol (m ((c : Thread nD τ).loc main_arg6)) :=
  (second_v12 (W2 m ρ c)).trans (W2_v12 m ρ c)
theorem W3_v14 : W3 m ρ c (Proc.devRef .tc main_v14) = scaleCol (m ((c : Thread nD τ).loc main_arg7)) :=
  (second_v14 (W2 m ρ c)).trans (W2_v14 m ρ c)
theorem W3_v15 : W3 m ρ c (Proc.devRef .tc main_v15) = shapeCast S1x64 (m ((c : Thread nD τ).loc main_arg3)) shapeCasts_S64_S1x64 :=
  (second_v15 (W2 m ρ c)).trans (W2_v15 m ρ c)
theorem W3_v16 : W3 m ρ c (Proc.devRef .tc main_v16) = shapeCast S1x128 (m ((c : Thread nD τ).loc main_arg5)) shapeCasts_S128_S1x128 :=
  (second_v16 (W2 m ρ c)).trans (W2_v16 m ρ c)
theorem W3_arg4 : W3 m ρ c (Proc.devRef .tc main_arg4) = m ((c : Thread nD τ).loc main_arg4) :=
  (second_arg4 (W2 m ρ c)).trans (W2_arg4 m ρ c)
theorem W3_arg6 : W3 m ρ c (Proc.devRef .tc main_arg6) = m ((c : Thread nD τ).loc main_arg6) :=
  (second_arg6 (W2 m ρ c)).trans (W2_arg6 m ρ c)
theorem W3_arg7 : W3 m ρ c (Proc.devRef .tc main_arg7) = m ((c : Thread nD τ).loc main_arg7) :=
  (second_arg7 (W2 m ρ c)).trans (W2_arg7 m ρ c)

/-! ### After the second launch -/

/-- The first layer's activation, scaled for the second layer. -/
abbrev act1 : S100000x64.Idx → EReal :=
  activate (agg1 m c) (scaleCol (m ((c : Thread nD τ).loc main_arg7))) (scaleCol (m ((c : Thread nD τ).loc main_arg6)))
    (shapeCast S1x64 (m ((c : Thread nD τ).loc main_arg3)) shapeCasts_S64_S1x64)

theorem W4_v28 : W4 m ρ c (Proc.devRef .tc main_v28) = act1 m c := by
  refine (W4_arr m ρ c 4).trans ((GcnActivate.final (V3 m ρ) c).trans ?_)
  show activate (W3 m ρ c (Proc.devRef .tc main_v27)) (W3 m ρ c (Proc.devRef .tc main_v14)) (W3 m ρ c (Proc.devRef .tc main_v12))
    (W3 m ρ c (Proc.devRef .tc main_v15)) = _
  rw [W3_v27, W3_v14, W3_v12, W3_v15]
theorem W4_v14 : W4 m ρ c (Proc.devRef .tc main_v14) = scaleCol (m ((c : Thread nD τ).loc main_arg7)) :=
  ((W4_arr m ρ c 1).trans (((dat1 (V3 m ρ) c).arrAt_in 1 rfl _).trans (A_eq1 (V3 m ρ) c 1))).trans (W3_v14 m ρ c)
theorem W4_v16 : W4 m ρ c (Proc.devRef .tc main_v16) = shapeCast S1x128 (m ((c : Thread nD τ).loc main_arg5)) shapeCasts_S128_S1x128 :=
  (W4_of_ne m ρ c main_v16 (by decide)).trans (W3_v16 m ρ c)
theorem W4_arg4 : W4 m ρ c (Proc.devRef .tc main_arg4) = m ((c : Thread nD τ).loc main_arg4) :=
  (W4_of_ne m ρ c main_arg4 (by decide)).trans (W3_arg4 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-! ### After the third stretch -/

theorem W5_v38 : W5 m ρ c (Proc.devRef .tc main_v38)
    = aggregate (act1 m c) (m ((c : Thread nD τ).loc main_arg6)) (m ((c : Thread nD τ).loc main_arg7)) := by
  refine (third_aggregate (W4 m ρ c)).trans ?_
  rw [W4_v28, W4_arg6, W4_arg7]
theorem W5_v14 : W5 m ρ c (Proc.devRef .tc main_v14) = scaleCol (m ((c : Thread nD τ).loc main_arg7)) :=
  (third_v14 (W4 m ρ c)).trans (W4_v14 m ρ c)
theorem W5_v16 : W5 m ρ c (Proc.devRef .tc main_v16) = shapeCast S1x128 (m ((c : Thread nD τ).loc main_arg5)) shapeCasts_S128_S1x128 :=
  (third_v16 (W4 m ρ c)).trans (W4_v16 m ρ c)
theorem W5_arg4 : W5 m ρ c (Proc.devRef .tc main_arg4) = m ((c : Thread nD τ).loc main_arg4) :=
  (third_arg4 (W4 m ρ c)).trans (W4_arg4 m ρ c)

/-! ### After the third launch: the result -/

/-- The result buffer at the last boundary is the network of the arguments as launched. -/
theorem result : W6 m ρ c (Proc.devRef .tc main_v39)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W6_arr m ρ c 4).trans ((GcnOutput.final (V5 m ρ) c).trans ?_)
  show output (W5 m ρ c (Proc.devRef .tc main_v38)) (W5 m ρ c (Proc.devRef .tc main_arg4)) (W5 m ρ c (Proc.devRef .tc main_v14))
    (W5 m ρ c (Proc.devRef .tc main_v16)) = _
  rw [W5_v38, W5_arg4, W5_v14, W5_v16]
  rfl

end Cert.KernelIdeal.GcnChain

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«169354_j33887291965782_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.RefValue.lean ====
/-
  The reference program computes the network.

  The reference is a straight line of host operations. Its three dense steps agree with the network's three layers
  entry by entry: a host matrix product is the plain sum of products; a vector laid out as a column and repeated over
  the columns reads, at (n, k), the vector at n, which is what the column cast of that vector holds at (n, 0); a vector
  laid out as a row and repeated over the rows reads, at (n, h), the vector at h, which is what the row cast holds at
  (0, h); a scalar repeated over an array is that scalar. Its degree counts, its gathers and its scatters are the
  network's own operations on the same edge lists, so the two agree by congruence through the layers.
-/
import proofs.«169354_j33887291965782_1_alg».proof.Proof.Gen.ReferenceIdeal.Read
import proofs.«169354_j33887291965782_1_alg».proof.Proof.GcnSpec
import proofs.«169354_j33887291965782_1_alg».proof.Proof.LibLayout
import proofs.«169354_j33887291965782_1_alg».proof.Proof.LibGcnLayer
import proofs.«169354_j33887291965782_1_alg».proof.Proof.LibHostDense

set_option maxRecDepth 16384

noncomputable section

namespace Cert.ReferenceIdeal.GcnRef

open Cert.ReferenceIdeal Cert.ReferenceIdeal.Facts₀ Cert.ReferenceIdeal.Facts Cert.ReferenceIdeal.Read
open Idealize.ShloMosaic Idealize.ShloMosaic.TcCoe Idealize.ShloMosaic.ValueIdx
open Cert.KernelIdeal.Gcn (degree scaleCol aggregate project projectAt activate activateAt output outputAt network)
open scoped BigOperators

/-- A vector of one entry per node, cast to a column. -/
abbrev col (r : FVec Ideal S100000 .f32) : FVec Ideal S100000x1 .f32 :=
  shapeCast S100000x1 r Cert.KernelIdeal.Facts₀.shapeCasts_S100000_S100000x1

/-- The first layer's dense step is the projection. -/
theorem project_eq (x0 x1 : FVec Ideal S100000x128 .f32) (r : FVec Ideal S100000 .f32) (x2 : FVec Ideal S128x64 .f32) :
    Host.dotGeneral dot_S100000x128_S128x64_S100000x64_1_0_0_1_n_n none
        (mulf (mulf x0 x1)
          (broadcastInDim S100000x128 ![0, 1] bcast_S100000x1_S100000x128_0_1 (broadcastInDim S100000x1 ![0] bcast_S100000_S100000x1_0 r)))
        x2
      = project x0 x1 (col r) x2 := by
  funext i
  obtain ⟨n, h, rfl⟩ : ∃ (n : Fin 100000) (h : Fin 64), i = ix2 n h := ⟨i 0, i 1, eq_ix2 i⟩
  refine (Cert.LibHostDense.hostDot_plain_apply dot_S100000x128_S128x64_S100000x64_1_0_0_1_n_n rfl rfl rfl rfl rfl rfl none _ _ n h).trans ?_
  show _ = projectAt x0 x1 (col r) x2 n h
  unfold projectAt
  refine Finset.sum_congr rfl fun k _ => ?_
  have hs : broadcastInDim S100000x128 ![0, 1] bcast_S100000x1_S100000x128_0_1 (broadcastInDim S100000x1 ![0] bcast_S100000_S100000x1_0 r) (ix2 n k)
      = r (ix1 n) :=
    (Cert.LibGcnLayer.bcastCols_apply _ bcast_S100000x1_S100000x128_0_1 n k).trans
      (Cert.LibGcnLayer.bcastCol_apply r bcast_S100000_S100000x1_0 n (0 : Fin 1))
  simp only [mulf_apply, shapeCast_a_a1_apply]
  rw [hs]

/-- The first layer's rescaling, bias, rectifier and second scaling are the activation. -/
theorem activate_eq (a : FVec Ideal S100000x64 .f32) (rt rs : FVec Ideal S100000 .f32) (b : FVec Ideal S64 .f32) :
    mulf
        (maximumf
          (addf
            (mulf a (broadcastInDim S100000x64 ![0, 1] bcast_S100000x1_S100000x64_0_1 (broadcastInDim S100000x1 ![0] bcast_S100000_S100000x1_0 rt)))
            (broadcastInDim S100000x64 ![0, 1] bcast_S1x64_S100000x64_0_1 (broadcastInDim S1x64 ![1] bcast_S64_S1x64_1 b)))
          (broadcastInDim S100000x64 ![] bcast_S_S100000x64 (constant (F := Ideal) S_ .f32 0x00000000#32)))
        (broadcastInDim S100000x64 ![0, 1] bcast_S100000x1_S100000x64_0_1 (broadcastInDim S100000x1 ![0] bcast_S100000_S100000x1_0 rs))
      = activate a (col rt) (col rs) (shapeCast S1x64 b Cert.KernelIdeal.Facts₀.shapeCasts_S64_S1x64) := by
  funext i
  obtain ⟨n, h, rfl⟩ : ∃ (n : Fin 100000) (h : Fin 64), i = ix2 n h := ⟨i 0, i 1, eq_ix2 i⟩
  show _ = activateAt a (col rt) (col rs) (shapeCast S1x64 b Cert.KernelIdeal.Facts₀.shapeCasts_S64_S1x64) n h
  unfold activateAt
  have ht : broadcastInDim S100000x64 ![0, 1] bcast_S100000x1_S100000x64_0_1 (broadcastInDim S100000x1 ![0] bcast_S100000_S100000x1_0 rt) (ix2 n h)
      = rt (ix1 n) :=
    (Cert.LibGcnLayer.bcastCols_apply _ bcast_S100000x1_S100000x64_0_1 n h).trans
      (Cert.LibGcnLayer.bcastCol_apply rt bcast_S100000_S100000x1_0 n (0 : Fin 1))
  have hs : broadcastInDim S100000x64 ![0, 1] bcast_S100000x1_S100000x64_0_1 (broadcastInDim S100000x1 ![0] bcast_S100000_S100000x1_0 rs) (ix2 n h)
      = rs (ix1 n) :=
    (Cert.LibGcnLayer.bcastCols_apply _ bcast_S100000x1_S100000x64_0_1 n h).trans
      (Cert.LibGcnLayer.bcastCol_apply rs bcast_S100000_S100000x1_0 n (0 : Fin 1))
  have hb : broadcastInDim S100000x64 ![0, 1] bcast_S1x64_S100000x64_0_1 (broadcastInDim S1x64 ![1] bcast_S64_S1x64_1 b) (ix2 n h) = b (ix1 h) :=
    Cert.LibGcnLayer.bcastRowRows_apply b bcast_S64_S1x64_1 bcast_S1x64_S100000x64_0_1 n h
  have hz : broadcastInDim S100000x64 ![] bcast_S_S100000x64 (constant (F := Ideal) S_ .f32 0x00000000#32) (ix2 n h)
      = Ideal.ofBits .f32 0x00000000#32 :=
    Cert.LibHostDense.bcastScalar_apply _ bcast_S_S100000x64 (ix2 n h)
  simp only [mulf_apply, maximumf_apply, addf_apply, shapeCast_a_a1_apply, Cert.LibGcnLayer.castRow_apply]
  rw [ht, hs, hb, hz]

/-- The second layer's dense step, rescaling and bias are the output. -/
theorem output_eq (a : FVec Ideal S100000x64 .f32) (x4 : FVec Ideal S64x128 .f32) (rt : FVec Ideal S100000 .f32) (b : FVec Ideal S128 .f32) :
    addf
        (mulf (Host.dotGeneral dot_S100000x64_S64x128_S100000x128_1_0_0_1_n_n none a x4)
          (broadcastInDim S100000x128 ![0, 1] bcast_S100000x1_S100000x128_0_1 (broadcastInDim S100000x1 ![0] bcast_S100000_S100000x1_0 rt)))
        (broadcastInDim S100000x128 ![0, 1] bcast_S1x128_S100000x128_0_1 (broadcastInDim S1x128 ![1] bcast_S128_S1x128_1 b))
      = output a x4 (col rt) (shapeCast S1x128 b Cert.KernelIdeal.Facts₀.shapeCasts_S128_S1x128) := by
  funext i
  obtain ⟨n, j, rfl⟩ : ∃ (n : Fin 100000) (j : Fin 128), i = ix2 n j := ⟨i 0, i 1, eq_ix2 i⟩
  show _ = outputAt a x4 (col rt) (shapeCast S1x128 b Cert.KernelIdeal.Facts₀.shapeCasts_S128_S1x128) n j
  unfold outputAt
  have ht : broadcastInDim S100000x128 ![0, 1] bcast_S100000x1_S100000x128_0_1 (broadcastInDim S100000x1 ![0] bcast_S100000_S100000x1_0 rt) (ix2 n j)
      = rt (ix1 n) :=
    (Cert.LibGcnLayer.bcastCols_apply _ bcast_S100000x1_S100000x128_0_1 n j).trans
      (Cert.LibGcnLayer.bcastCol_apply rt bcast_S100000_S100000x1_0 n (0 : Fin 1))
  have hb : broadcastInDim S100000x128 ![0, 1] bcast_S1x128_S100000x128_0_1 (broadcastInDim S1x128 ![1] bcast_S128_S1x128_1 b) (ix2 n j) = b (ix1 j) :=
    Cert.LibGcnLayer.bcastRowRows_apply b bcast_S128_S1x128_1 bcast_S1x128_S100000x128_0_1 n j
  have hd : Host.dotGeneral dot_S100000x64_S64x128_S100000x128_1_0_0_1_n_n none a x4 (ix2 n j) = ∑ k : Fin 64, a (ix2 n k) * x4 (ix2 k j) :=
    Cert.LibHostDense.hostDot_plain_apply dot_S100000x64_S64x128_S100000x128_1_0_0_1_n_n rfl rfl rfl rfl rfl rfl none a x4 n j
  simp only [addf_apply, mulf_apply, shapeCast_a_a1_apply, Cert.LibGcnLayer.castRow_apply]
  rw [hd, ht, hb]

/-- The reference counts degrees as the network does (the two programs print the same scatter of ones). -/
theorem degree_src (x6 : (⟨S1600000, .i32⟩ : BufTy).Contents (Elt Ideal)) : val_main_v5 (F := Ideal) x6 = degree x6 := rfl
theorem degree_dst (x7 : (⟨S1600000, .i32⟩ : BufTy).Contents (Elt Ideal)) : val_main_v10 (F := Ideal) x7 = degree x7 := rfl

/-- The reference gathers at the sources and adds up at the targets as the network does, in both layers. -/
theorem aggregate_first (x : FVec Ideal S100000x64 .f32) (x6 x7 : (⟨S1600000, .i32⟩ : BufTy).Contents (Elt Ideal)) :
    Host.scatterAdd scatter_S100000x64_S1600000x1_S1600000x64_1_0_0_1 (val_main_v24 (F := Ideal)) (val_main_v25 (F := Ideal) x7)
        (Host.gather gather_S100000x64_S1600000x1_S1600000x64_1_0_n_n_0_1_164 x (val_main_v22 (F := Ideal) x6))
      = aggregate x x6 x7 := rfl
theorem aggregate_second (x : FVec Ideal S100000x64 .f32) (x6 x7 : (⟨S1600000, .i32⟩ : BufTy).Contents (Elt Ideal)) :
    Host.scatterAdd scatter_S100000x64_S1600000x1_S1600000x64_1_0_0_1 (val_main_v46 (F := Ideal)) (val_main_v47 (F := Ideal) x7)
        (Host.gather gather_S100000x64_S1600000x1_S1600000x64_1_0_n_n_0_1_164 x (val_main_v44 (F := Ideal) x6))
      = aggregate x x6 x7 := rfl

/-- The reference's result is the network of its arguments. -/
theorem result_eq (x0 x1 : FVec Ideal S100000x128 .f32) (x2 : FVec Ideal S128x64 .f32) (x3 : FVec Ideal S64 .f32)
    (x4 : FVec Ideal S64x128 .f32) (x5 : FVec Ideal S128 .f32) (x6 x7 : (⟨S1600000, .i32⟩ : BufTy).Contents (Elt Ideal)) :
    val_main_v56 (F := Ideal) x0 x1 x2 x3 x4 x5 x6 x7 = network x0 x1 x2 x3 x4 x5 x6 x7 := by
  have h1 : val_main_v16 (F := Ideal) x0 x1 x2 x6 = project x0 x1 (scaleCol x6) x2 :=
    project_eq x0 x1 (Host.rsqrt (degree x6)) x2
  have h2 : val_main_v26 (F := Ideal) x0 x1 x2 x6 x7 = aggregate (project x0 x1 (scaleCol x6) x2) x6 x7 :=
    (aggregate_first (val_main_v16 (F := Ideal) x0 x1 x2 x6) x6 x7).trans (congrArg (fun x => aggregate x x6 x7) h1)
  have h3 : val_main_v38 (F := Ideal) x0 x1 x2 x3 x6 x7
      = activate (aggregate (project x0 x1 (scaleCol x6) x2) x6 x7) (scaleCol x7) (scaleCol x6)
          (shapeCast S1x64 x3 Cert.KernelIdeal.Facts₀.shapeCasts_S64_S1x64) :=
    (activate_eq (val_main_v26 (F := Ideal) x0 x1 x2 x6 x7) (Host.rsqrt (degree x7)) (Host.rsqrt (degree x6)) x3).trans
      (congrArg (fun a => activate a (scaleCol x7) (scaleCol x6) (shapeCast S1x64 x3 Cert.KernelIdeal.Facts₀.shapeCasts_S64_S1x64)) h2)
  have h4 : val_main_v48 (F := Ideal) x0 x1 x2 x3 x6 x7
      = aggregate (activate (aggregate (project x0 x1 (scaleCol x6) x2) x6 x7) (scaleCol x7) (scaleCol x6)
          (shapeCast S1x64 x3 Cert.KernelIdeal.Facts₀.shapeCasts_S64_S1x64)) x6 x7 :=
    (aggregate_second (val_main_v38 (F := Ideal) x0 x1 x2 x3 x6 x7) x6 x7).trans (congrArg (fun x => aggregate x x6 x7) h3)
  exact (output_eq (val_main_v48 (F := Ideal) x0 x1 x2 x3 x6 x7) x4 (Host.rsqrt (degree x7)) x5).trans
    (congrArg (fun a => output a x4 (scaleCol x7) (shapeCast S1x128 x5 Cert.KernelIdeal.Facts₀.shapeCasts_S128_S1x128)) h4)

end Cert.ReferenceIdeal.GcnRef

end
-- ==== Proof.lean ====
/-
  A two-layer graph convolution over 100000 nodes and 1600000 edges: the kernel program against its reference, at
  the extended reals.

  Both programs count each node's out-degree and in-degree by a scatter of ones (at least one), take the inverse
  square roots s and t, and compute

    x1 = ((features * mask) * s) W1,   a1 = x1 gathered at the edges' sources and added up at their targets,
    x2 = max (a1 * t + b1) 0 * s,      a2 = x2 gathered and added up in the same way,
    out = (a2 W2) * t + b2.

  The kernel program runs the three dense steps as launches over 20 blocks of 5000 rows, with the scale factors laid
  out as columns and the biases as rows by casts, and the degree counts, gathers and scatters as host operations
  between the launches; the reference runs everything as host operations on whole arrays, laying the scale factors and
  biases out by repetition. Entry by entry the dense steps are the same sums and products in the same order (a change of
  float format is the identity, a product into a zero accumulator and the host's product are one sum, a column or row
  read through a cast or through a repetition is the same entry), and the degree counts, gathers and scatters are the
  same operations on the same edge lists. So both results are one function of the arguments, the network; no
  rearrangement of sums or products is involved, and the finiteness of the inputs is never used.

  The kernel program's idealization rewrote nothing, so it is the program's own text read at the extended reals.
-/
import proofs.«169354_j33887291965782_1_alg».proof.Defs
import proofs.«169354_j33887291965782_1_alg».proof.Proof.Gen.Kernel
import proofs.«169354_j33887291965782_1_alg».proof.Proof.Gen.Kernel.Skeleton
import proofs.«169354_j33887291965782_1_alg».proof.Proof.Gen.Kernel.Launch
import proofs.«169354_j33887291965782_1_alg».proof.Proof.Gen.Kernel.Points
import proofs.«169354_j33887291965782_1_alg».proof.Proof.Gen.Kernel.Frame
import proofs.«169354_j33887291965782_1_alg».proof.Proof.Gen.KernelIdeal
import proofs.«169354_j33887291965782_1_alg».proof.Proof.Gen.KernelIdeal.Skeleton
import proofs.«169354_j33887291965782_1_alg».proof.Proof.Gen.KernelIdeal.Launch
import proofs.«169354_j33887291965782_1_alg».proof.Proof.Gen.KernelIdeal.Points
import proofs.«169354_j33887291965782_1_alg».proof.Proof.Gen.KernelIdeal.Frame
import proofs.«169354_j33887291965782_1_alg».proof.Proof.Gen.ReferenceIdeal
import proofs.«169354_j33887291965782_1_alg».proof.Proof.Gen.Pre_finite_inputs
import proofs.«169354_j33887291965782_1_alg».proof.Proof.Gen.ReferenceIdeal.Run
import proofs.«169354_j33887291965782_1_alg».proof.Proof.Gen.ReferenceIdeal.Read
import proofs.«169354_j33887291965782_1_alg».proof.Proof.KernelRun
import proofs.«169354_j33887291965782_1_alg».proof.Proof.KernelChain
import proofs.«169354_j33887291965782_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- The kernel program read at the extended reals runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network of those arguments. -/
theorem algebraic : Cert.algebraic_KernelIdeal_ReferenceIdeal := by
  intro m ρ m' ρ' _ hagree
  refine ⟨fun c => Cert.KernelIdeal.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.GcnChain.result m ρ c), (h c).2⟩)
      (Cert.KernelIdeal.GcnRun.run_main m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v56_eq, Cert.ReferenceIdeal.GcnRef.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
